-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x2048 : Shape := ⟨3, ![32, 64, 2048]⟩
abbrev S2048x2048 : Shape := ⟨2, ![2048, 2048]⟩
abbrev S32x2048x2048 : Shape := ⟨3, ![32, 2048, 2048]⟩
abbrev S_ : Shape := ⟨0, ![]⟩

class Facts : Prop where
  bcast_S_S32x64x2048 : S_.BroadcastsInDim S32x64x2048 (![] : Fin 0 → Fin S32x64x2048.rank)
  reducesTo_S32x64x2048_S_d0_1_2 : S32x64x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S32x2048x2048 : S_.BroadcastsInDim S32x2048x2048 (![] : Fin 0 → Fin S32x2048x2048.rank)
  reducesTo_S32x2048x2048_S_d0_1_2 : S32x2048x2048.ReducesTo [0, 1, 2] S_

variable [Facts]

def fn_part1 {F : FTy → Type} [FloatOps F] (main_arg4 : FVec F S2048x2048 .f32) (main_v13 : IVec S_ 1) (main_v16 : IVec S32x2048x2048 1) : IVec S_ 1 :=
  let main_c_5 : IVec S_ 1 := constantI S_ 1 1#1
  let main_v17 : IVec S_ 1 := (fun x v => Host.reduce IntOp.andi x v reducesTo_S32x2048x2048_S_d0_1_2 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S32x64x2048 .f32) (main_arg1 : FVec F S2048x2048 .f32) (main_arg2 : FVec F S32x2048x2048 .f32) (main_arg3 : FVec F S32x2048x2048 .f32) (main_arg4 : FVec F S2048x2048 .f32) : IVec S_ 1 :=
  let main_v0 : FVec F S32x64x2048 .f32 := Host.absf main_arg0
  let main_cst : FVec F S_ .f32 := constant S_ .f32 0x7F800000#32
  let main_v1 : FVec F S32x64x2048 .f32 := broadcastInDim S32x64x2048 ![] bcast_S_S32x64x2048 main_cst
  let main_v2 : IVec S32x64x2048 1 := cmpf .olt main_v0 main_v1
  let main_c : IVec S_ 1 := constantI S_ 1 1#1
  let main_v3 : IVec S_ 1 := (fun x v => Host.reduce IntOp.andi x v reducesTo_S32x64x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32x2048x2048 .f32 := Host.absf main_arg2
  let main_cst_2 : FVec F S_ .f32 := constant S_ .f32 0x7F800000#32
  let main_v10 : FVec F S32x2048x2048 .f32 := broadcastInDim S32x2048x2048 ![] bcast_S_S32x2048x2048 main_cst_2
  let main_v11 : IVec S32x2048x2048 1 := cmpf .olt main_v9 main_v10
  let main_c_3 : IVec S_ 1 := constantI S_ 1 1#1
  let main_v12 : IVec S_ 1 := (fun x v => Host.reduce IntOp.andi x v reducesTo_S32x2048x2048_S_d0_1_2 h_S_) main_v11 main_c_3
  let main_v13 : IVec S_ 1 := andi main_v8 main_v12
  let main_v14 : FVec F S32x2048x2048 .f32 := Host.absf main_arg3
  let main_cst_4 : FVec F S_ .f32 := constant S_ .f32 0x7F800000#32
  let main_v15 : FVec F S32x2048x2048 .f32 := broadcastInDim S32x2048x2048 ![] bcast_S_S32x2048x2048 main_cst_4
  let main_v16 : IVec S32x2048x2048 1 := cmpf .olt main_v14 main_v15
  fn_part1 (F := F) main_arg4 main_v13 main_v16
-- ==== Kernel.lean ====
abbrev S32x64x2048 : Shape := ⟨3, ![32, 64, 2048]⟩
abbrev S2048x2048 : Shape := ⟨2, ![2048, 2048]⟩
abbrev S32x2048x2048 : Shape := ⟨3, ![32, 2048, 2048]⟩
abbrev S1x64x2048 : Shape := ⟨3, ![1, 64, 2048]⟩
abbrev S512x2048 : Shape := ⟨2, ![512, 2048]⟩
abbrev S1x512x2048 : Shape := ⟨3, ![1, 512, 2048]⟩
abbrev S1x64x512 : Shape := ⟨3, ![1, 64, 512]⟩
abbrev S64x2048 : Shape := ⟨2, ![64, 2048]⟩
abbrev S2048x512 : Shape := ⟨2, ![2048, 512]⟩
abbrev S64x512 : Shape := ⟨2, ![64, 512]⟩

abbrev nBuf : Space → Nat
  | .hbm => 7
  | .vmem => 11
  | .smem => 0
  | _ => 0

abbrev bufTy : (tb : Table) → Fin (tcTables nBuf tb) → BufTy
  | .hbm, ⟨0, _⟩ => ⟨S32x64x2048, .f32⟩
  | .hbm, ⟨1, _⟩ => ⟨S2048x2048, .f32⟩
  | .hbm, ⟨2, _⟩ => ⟨S32x2048x2048, .f32⟩
  | .hbm, ⟨3, _⟩ => ⟨S32x2048x2048, .f32⟩
  | .hbm, ⟨4, _⟩ => ⟨S2048x2048, .f32⟩
  | .hbm, ⟨5, _⟩ => ⟨S32x64x2048, .bf16⟩
  | .hbm, ⟨6, _⟩ => ⟨S32x64x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S512x2048, .f32⟩
  | .local _ .vmem, ⟨3, _⟩ => ⟨S512x2048, .f32⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | .local _ .vmem, ⟨7, _⟩ => ⟨S512x2048, .f32⟩
  | .local _ .vmem, ⟨8, _⟩ => ⟨S1x64x512, .f32⟩
  | .local _ .vmem, ⟨9, _⟩ => ⟨S1x64x512, .f32⟩
  | .local _ .vmem, ⟨10, _⟩ => ⟨S512x2048, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  transposes_S512x2048_p1_0_S2048x512 : S512x2048.Transposes [1, 0] S2048x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  dot_S64x2048_S2048x512_S64x512_1_0_0_1_n_n_wf : DotDims.WF S64x2048 S2048x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S32x64x2048.size a
  hwx0_0 : ∀ i : grid0.Coords, EltTy.bits .bf16 = 32 ∨ (Rect.block (s := S32x64x2048) S1x64x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S32x2048x2048.size a
  hwx0_2 : ∀ i : grid0.Coords, EltTy.bits .f32 = 32 ∨ (Rect.block (s := S32x2048x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S32x64x2048.size a
  hwx0_4 : ∀ i : grid0.Coords, EltTy.bits .f32 = 32 ∨ (Rect.block (s := S32x64x2048) S1x64x512.size (cc0_transform_4 i) (hinb0_4 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x2048 : Shape := ⟨3, ![32, 64, 2048]⟩
abbrev S2048x2048 : Shape := ⟨2, ![2048, 2048]⟩
abbrev S32x2048x2048 : Shape := ⟨3, ![32, 2048, 2048]⟩
abbrev S_ : Shape := ⟨0, ![]⟩
abbrev S1x2048x2048 : Shape := ⟨3, ![1, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S2048x2048, .f32⟩
  | .hbm, ⟨2, _⟩ => ⟨S32x2048x2048, .f32⟩
  | .hbm, ⟨3, _⟩ => ⟨S32x2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S1x2048x2048, .f32⟩
  | .hbm, ⟨13, _⟩ => ⟨S32x2048x2048, .f32⟩
  | .hbm, ⟨14, _⟩ => ⟨S32x2048x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  dot_S32x64x2048_S32x2048x2048_S32x64x2048_2_2_1_1_0_0_wf : DotDims.WF S32x64x2048 S32x2048x2048 S32x64x2048 [2] [2] [1] [1] [0] [0]
  dot_S32x64x2048_S2048x2048_S32x64x2048_2_1_01_0_n_n_wf : DotDims.WF S32x64x2048 S2048x2048 S32x64x2048 [2] [1] [0, 1] [0] [] []

variable [Facts₀]

def dot_S32x64x2048_S32x2048x2048_S32x64x2048_2_2_1_1_0_0 : DotDims S32x64x2048 S32x2048x2048 S32x64x2048 where
  lhsContracting := [2]
  rhsContracting := [2]
  lhsNonContracting := [1]
  rhsNonContracting := [1]
  lhsBatch := [0]
  rhsBatch := [0]
  wf := dot_S32x64x2048_S32x2048x2048_S32x64x2048_2_2_1_1_0_0_wf
def dot_S32x64x2048_S2048x2048_S32x64x2048_2_1_01_0_n_n : DotDims S32x64x2048 S2048x2048 S32x64x2048 where
  lhsContracting := [2]
  rhsContracting := [1]
  lhsNonContracting := [0, 1]
  rhsNonContracting := [0]
  lhsBatch := []
  rhsBatch := []
  wf := dot_S32x64x2048_S2048x2048_S32x64x2048_2_1_01_0_n_n_wf

class Facts : Prop extends Facts₀ where

variable [Facts]
-- ==== Proof.Spec.lean ====
/-
  The mathematics of the fast-weight readout, with no program in sight.

  Inputs: x[b,s,i] (32×64×2048), log-rates L[o,i] (2048×2048), per-batch state st[b,o,i] (32×2048×2048) and a base
  weight w[o,i] (2048×2048).  The learning rate is  rate(L[o,i]) = c_lr · exp(L[o,i] · c_exp)  with two float literals
  c_lr, c_exp that both programs spell with the same bit patterns.

  The kernel multiplies x by the COMBINED weight  rate·st + w  in one contraction ("fused"):
      y[b,s,o] = Σ_i x[b,s,i] · (rate(L[o,i]) · st[b,o,i] + w[o,i]),
  the reference contracts the two summands separately and adds the results ("split"):
      y[b,s,o] = Σ_i x[b,s,i] · (rate(L[o,i]) · st[b,o,i])  +  Σ_i x[b,s,i] · w[o,i].
  On the extended reals multiplication distributes over a sum only away from the infinities, so the two agree
  when every entry is a real number — which is what finiteness of the inputs gives, the exponential of a real
  being real.
-/
import Idealize.ShloMosaic.PureOps.Ideal
import Idealize.ShloMosaic.Lib.ValueIdx

noncomputable section

namespace Cert.Spec

open Idealize.ShloMosaic Idealize.ShloMosaic.ValueIdx

/-- An extended real that is a real number (neither infinity). -/
def IsReal (v : EReal) : Prop := ∃ r : ℝ, v = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.exp {a : EReal} (ha : IsReal a) : IsReal (Ideal.exp a) := by
  obtain ⟨r, rfl⟩ := ha; exact ⟨Real.exp r, rfl⟩

/-- Over real entries a factor distributes over a sum. -/
theorem mul_add_of_real {a p q : EReal} (ha : IsReal a) (hp : IsReal p) (hq : IsReal q) :
    a * (p + q) = a * p + a * q := by
  obtain ⟨r, rfl⟩ := ha; obtain ⟨s, rfl⟩ := hp; obtain ⟨u, rfl⟩ := hq
  rw [← EReal.coe_add, ← EReal.coe_mul, ← EReal.coe_mul, ← EReal.coe_mul, ← EReal.coe_add, mul_add]

/-- The scale inside the exponential: the float nearest √2048. -/
abbrev cExp : EReal := Ideal.ofBits .f32 0x423504F3#32
/-- The scale in front of it: the float nearest 1/100. -/
abbrev cLr : EReal := Ideal.ofBits .f32 0x3C23D70A#32

theorem cExp_real : IsReal cExp := by
  unfold IsReal cExp; simp [Ideal.ofBits, Ideal.ieee, -EReal.coe_mul]

theorem cLr_real : IsReal cLr := by
  unfold IsReal cLr; simp [Ideal.ofBits, Ideal.ieee, -EReal.coe_mul]

/-- The learning rate of one log-rate entry. -/
def rate (l : EReal) : EReal := cLr * Ideal.exp (l * cExp)

theorem rate_real {l : EReal} (h : IsReal l) : IsReal (rate l) :=
  cLr_real.mul (h.mul cExp_real).exp

abbrev Sx : Shape := ⟨3, ![32, 64, 2048]⟩
abbrev Sw : Shape := ⟨2, ![2048, 2048]⟩
abbrev Sst : Shape := ⟨3, ![32, 2048, 2048]⟩

variable (x : Sx.Idx → EReal) (L : Sw.Idx → EReal) (st : Sst.Idx → EReal) (w : Sw.Idx → EReal)

/-- One entry of the result, the combined weight contracted once. -/
def fusedAt (b : Fin 32) (s : Fin 64) (o : Fin 2048) : EReal :=
  ∑ k : Fin 2048, x (ix3 b s k) * (rate (L (ix2 o k)) * st (ix3 b o k) + w (ix2 o k))

/-- One entry of the result, the two summands contracted separately. -/
def splitAt (b : Fin 32) (s : Fin 64) (o : Fin 2048) : EReal :=
  (∑ k : Fin 2048, x (ix3 b s k) * (rate (L (ix2 o k)) * st (ix3 b o k))) + ∑ k : Fin 2048, x (ix3 b s k) * w (ix2 o k)

/-- The whole result, fused form. -/
def fused : Sx.Idx → EReal := fun j => fusedAt x L st w (j 0) (j 1) (j 2)

/-- The whole result, split form. -/
def split : Sx.Idx → EReal := fun j => splitAt x L st w (j 0) (j 1) (j 2)

variable {x L st w}

/-- With real entries the two forms agree: distributivity entry by entry, then the sum of a sum. -/
theorem fusedAt_eq_splitAt (hx : ∀ i, IsReal (x i)) (hL : ∀ i, IsReal (L i)) (hst : ∀ i, IsReal (st i))
    (hw : ∀ i, IsReal (w i)) (b : Fin 32) (s : Fin 64) (o : Fin 2048) :
    fusedAt x L st w b s o = splitAt x L st w b s o := by
  unfold fusedAt splitAt
  rw [← Finset.sum_add_distrib]
  exact Finset.sum_congr rfl fun k _ =>
    mul_add_of_real (hx _) ((rate_real (hL _)).mul (hst _)) (hw _)

theorem fused_eq_split (hx : ∀ i, IsReal (x i)) (hL : ∀ i, IsReal (L i)) (hst : ∀ i, IsReal (st i))
    (hw : ∀ i, IsReal (w i)) : fused x L st w = split x L st w :=
  funext fun j => fusedAt_eq_splitAt hx hL hst hw (j 0) (j 1) (j 2)

end Cert.Spec

end
-- ==== Proof.Finite.lean ====
/-
  What the precondition says: each of the five float inputs passes "|v| < +inf everywhere", conjoined.
  An extended real whose absolute value max(v, -v) is strictly below +inf is neither infinity, so every entry
  of x, of the log-rates, of the state and of the base weight is a real number.
-/
import proofs.«163367_j19069654794325_2_alg».proof.Pre_finite_inputs
import proofs.«163367_j19069654794325_2_alg».proof.Proof.Gen.Pre_finite_inputs
import proofs.«163367_j19069654794325_2_alg».proof.Proof.Spec
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Cert.Spec

instance : Subsingleton S_.Idx := ⟨fun a b => funext fun d => d.elim0⟩

/-- An extended real with max(v, -v) < +inf is a real number. -/
theorem real_of_abs_lt (v : EReal)
    (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  induction v using EReal.rec with
  | bot => exact absurd h (by simp [Ideal.cmp])
  | top => exact absurd h (by simp [Ideal.cmp])
  | coe r => exact ⟨r, rfl⟩

variable [Facts]

/-- One conjunct of the precondition: the all-reduce of the comparison is 1, so every entry is real. -/
theorem real_of_all {s : Shape} (a : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ValueIdx.ix0 = 1#1) (i : s.Idx) : IsReal (a i) :=
  real_of_abs_lt (a i) (Host.reduce_andi_all _ _ hr hu ValueIdx.ix0 h i)

/-- The precondition at the ideal values: x, the log-rates, the state and the base weight have real entries. -/
theorem real_of_pre (a0 : FVec Ideal S32x64x2048 .f32) (a1 : FVec Ideal S2048x2048 .f32) (a2 : FVec Ideal S32x2048x2048 .f32)
    (a3 : FVec Ideal S32x2048x2048 .f32) (a4 : FVec Ideal S2048x2048 .f32)
    (h : fn (F := Ideal) a0 a1 a2 a3 a4 = fun _ => 1#1) :
    (∀ i, IsReal (a0 i)) ∧ (∀ i, IsReal (a1 i)) ∧ (∀ i, IsReal (a2 i)) ∧ (∀ i, IsReal (a4 i)) := by
  have h0 := congrFun h ValueIdx.ix0
  dsimp only [fn, fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2, real_of_all a4 _ _ _ h4⟩

end Cert.Pre_finite_inputs.Finite

end
-- ==== Proof.RefIs.lean ====
/-
  The reference's result, stage by stage, is the split form of the specification: the two broadcasts carry the
  rate matrix to every batch, the first contraction pairs x[b,s,k] with rate(L[o,k]) · st[b,o,k], the second
  pairs x[b,s,k] with w[o,k], and the last stage adds them.
-/
import proofs.«163367_j19069654794325_2_alg».proof.Proof.Gen.ReferenceIdeal.Read
import proofs.«163367_j19069654794325_2_alg».proof.Proof.Spec

noncomputable section

namespace Cert.ReferenceIdeal.RefValue

open Cert.ReferenceIdeal Cert.ReferenceIdeal.Read Idealize.ShloMosaic Idealize.ShloMosaic.ValueIdx

theorem lidx8 (i : S32x64x2048.Idx) (k : Fin 2048) : lidx_main_v8 i k = ix3 (i 0) (i 1) k :=
  funext fun a => Fin.ext (by match a with | ⟨0, _⟩ => rfl | ⟨1, _⟩ => rfl | ⟨2, _⟩ => rfl)
theorem ridx8 (i : S32x64x2048.Idx) (k : Fin 2048) : ridx_main_v8 i k = ix3 (i 0) (i 2) k :=
  funext fun a => Fin.ext (by match a with | ⟨0, _⟩ => rfl | ⟨1, _⟩ => rfl | ⟨2, _⟩ => rfl)
theorem lidx9 (i : S32x64x2048.Idx) (k : Fin 2048) : lidx_main_v9 i k = ix3 (i 0) (i 1) k :=
  funext fun a => Fin.ext (by match a with | ⟨0, _⟩ => rfl | ⟨1, _⟩ => rfl | ⟨2, _⟩ => rfl)
theorem ridx9 (i : S32x64x2048.Idx) (k : Fin 2048) : ridx_main_v9 i k = ix2 (i 2) k :=
  funext fun a => Fin.ext (by match a with | ⟨0, _⟩ => rfl | ⟨1, _⟩ => rfl)

/-- The scaled state at (b, o, k): the rate of L[o, k] times st[b, o, k]. -/
theorem v7_at (x1 : (⟨S2048x2048, .f32⟩ : BufTy).Contents (Elt Ideal)) (x2 : (⟨S32x2048x2048, .f32⟩ : BufTy).Contents (Elt Ideal))
    (b : Fin 32) (o k : Fin 2048) :
    val_main_v7 (F := Ideal) x1 x2 (ix3 b o k) = Cert.Spec.rate (x1 (ix2 o k)) * x2 (ix3 b o k) := by
  rw [val_main_v7_apply, val_main_v6_apply, val_main_v5_apply, val_main_v4_apply, val_main_v3_apply, val_main_cst_0_apply,
    val_main_v2_apply, val_main_v1_apply, val_main_v0_apply, val_main_cst_apply]
  have e : idx_main_v5 (idx_main_v6 (ix3 b o k)) = ix2 o k :=
    funext fun a => Fin.ext (by match a with | ⟨0, _⟩ => rfl | ⟨1, _⟩ => rfl)
  rw [e]
  rfl

/-- The reference's last stage is the split form. -/
theorem ref_eq (x0 : (⟨S32x64x2048, .f32⟩ : BufTy).Contents (Elt Ideal)) (x1 : (⟨S2048x2048, .f32⟩ : BufTy).Contents (Elt Ideal))
    (x2 : (⟨S32x2048x2048, .f32⟩ : BufTy).Contents (Elt Ideal)) (x4 : (⟨S2048x2048, .f32⟩ : BufTy).Contents (Elt Ideal)) :
    val_main_v10 (F := Ideal) x0 x1 x2 x4 = Cert.Spec.split x0 x1 x2 x4 := by
  funext i
  obtain ⟨b, s, o, rfl⟩ : ∃ (b : Fin 32) (s : Fin 64) (o : Fin 2048), i = ix3 b s o := ⟨i 0, i 1, i 2, eq_ix3 i⟩
  rw [val_main_v10_apply, val_main_v8_apply, val_main_v9_apply]
  unfold Cert.Spec.split Cert.Spec.splitAt
  simp only [lidx8, ridx8, lidx9, ridx9]
  show (∑ k : Fin 2048, x0 (ix3 b s k) * val_main_v7 (F := Ideal) x1 x2 (ix3 b o k)) + (∑ k : Fin 2048, x0 (ix3 b s k) * x4 (ix2 o k)) = _
  simp only [v7_at]

end Cert.ReferenceIdeal.RefValue

end
-- ==== Proof.Pieces.lean ====
/-
  What each control case of the body leaves behind, as pure values of what it loaded.

  At a grid point whose batch coordinate is zero the body first stores the rate tile (computed from the loaded
  log-rate tile) into the carried scratch and then reads it back; at every other point it reads the scratch as the
  point before left it.  Either way the output tile is the one payload of the scratch contents, the state tile, the
  base-weight tile and the x tile; every load and store goes through the whole buffer.
-/
import proofs.«163367_j19069654794325_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point with batch coordinate zero the scratch ends at the rate tile of the loaded log-rate tile. -/
theorem scratch_A (c : Dev nD) (i : grid0.Coords) (a2 : Memref sig .tc .vmem S1x64x2048 .bf16) (h2 : a2.IsWhole) (a3 : Memref sig .tc .vmem S512x2048 .f32) (h3 : a3.IsWhole) (a4 : Memref sig .tc .vmem S1x512x2048 .f32) (h4 : a4.IsWhole) (a5 : Memref sig .tc .vmem S512x2048 .f32) (h5 : a5.IsWhole) (a6 : Memref sig .tc .vmem S1x64x512 .f32) (h6 : a6.IsWhole) (a7 : Memref sig .tc .vmem S512x2048 .f32) (h7 : a7.IsWhole) (hc : cond0_0 i) (x0 : Vec F S1x64x2048 .bf16) (x1 : Vec F S512x2048 .f32) (x2 : Vec F S1x512x2048 .f32) (x3 : Vec F S512x2048 .f32) :
    sout0_A_0 c i a2 h2 a3 h3 a4 h4 a5 h5 a6 h6 a7 h7 hc x0 x1 x2 x3 = k0_pay1 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz2]
  simp only [View.readAt_eq_ld, h3.read_unread, View.ld_unit_zero (S := S512x2048) hz2]

/-- … and the output tile is the payload over that freshly stored scratch. -/
theorem out_A (c : Dev nD) (i : grid0.Coords) (a2 : Memref sig .tc .vmem S1x64x2048 .bf16) (h2 : a2.IsWhole) (a3 : Memref sig .tc .vmem S512x2048 .f32) (h3 : a3.IsWhole) (a4 : Memref sig .tc .vmem S1x512x2048 .f32) (h4 : a4.IsWhole) (a5 : Memref sig .tc .vmem S512x2048 .f32) (h5 : a5.IsWhole) (a6 : Memref sig .tc .vmem S1x64x512 .f32) (h6 : a6.IsWhole) (a7 : Memref sig .tc .vmem S512x2048 .f32) (h7 : a7.IsWhole) (hc : cond0_0 i) (x0 : Vec F S1x64x2048 .bf16) (x1 : Vec F S512x2048 .f32) (x2 : Vec F S1x512x2048 .f32) (x3 : Vec F S512x2048 .f32) :
    out0_A_4 c i a2 h2 a3 h3 a4 h4 a5 h5 a6 h6 a7 h7 hc x0 x1 x2 x3 = k0_pay2 (k0_pay1 x1) x2 x3 x0 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz3, View.readCov_unit_zero (S := S512x2048) _ hz2]
  simp only [View.readAt_eq_ld, h2.read_unread, h3.read_unread, h4.read_unread, h5.read_unread,
    View.ld_unit_zero (S := S512x2048) hz2, View.ld_unit_zero (S := S1x512x2048) hz3, View.ld_unit_zero (S := S1x64x2048) hz3]

/-- At any other point the output tile is the payload over the scratch as the point before left it. -/
theorem out_B (c : Dev nD) (i : grid0.Coords) (a2 : Memref sig .tc .vmem S1x64x2048 .bf16) (h2 : a2.IsWhole) (a3 : Memref sig .tc .vmem S512x2048 .f32) (h3 : a3.IsWhole) (a4 : Memref sig .tc .vmem S1x512x2048 .f32) (h4 : a4.IsWhole) (a5 : Memref sig .tc .vmem S512x2048 .f32) (h5 : a5.IsWhole) (a6 : Memref sig .tc .vmem S1x64x512 .f32) (h6 : a6.IsWhole) (a7 : Memref sig .tc .vmem S512x2048 .f32) (h7 : a7.IsWhole) (hc : ¬cond0_0 i) (x0 : Vec F S1x64x2048 .bf16) (x1 : Vec F S512x2048 .f32) (x2 : Vec F S1x512x2048 .f32) (x3 : Vec F S512x2048 .f32) (xs0 : Vec F S512x2048 .f32) :
    out0_B_4 c i a2 h2 a3 h3 a4 h4 a5 h5 a6 h6 a7 h7 hc x0 x1 x2 x3 xs0 = k0_pay2 xs0 x2 x3 x0 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  sl_unfold_words
  rw [View.canon_unit_zero hz3]
  simp only [View.readAt_eq_ld, h2.read_unread, h4.read_unread, h5.read_unread, h7.read_unread,
    View.ld_unit_zero (S := S512x2048) hz2, View.ld_unit_zero (S := S1x512x2048) hz3, View.ld_unit_zero (S := S1x64x2048) hz3]

end Cert.KernelIdeal.Pieces

end
-- ==== Proof.PayAt.lean ====
/-
  The kernel body's two stored values, read at an index, at the ideal values.

  The scratch store: entry (p, q) of the stored tile is the learning rate of entry (p, q) of the loaded log-rate tile.
  The output store: entry (·, s, o) is the contraction over k of the x tile's (·, s, k) with the combined weight
  tile's (o, k) — scratch · state + base —; the matrix unit sees that weight transposed, and a transposed
  matrix read at (k, o) is the matrix at (o, k); the changes of float format are the identity; the unit
  leading axes of the x, state and output tiles are dropped or added by row-major casts that keep (·, a, b) ↦ (a, b).
-/
import proofs.«163367_j19069654794325_2_alg».proof.Proof.Gen.KernelIdeal.Skeleton
import proofs.«163367_j19069654794325_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayAt

open Cert.KernelIdeal Cert.KernelIdeal.Gen Idealize.ShloMosaic Idealize.ShloMosaic.ValueIdx

/-- The stored scratch entry is the learning rate of the loaded log-rate entry. -/
theorem pay1_apply (v17 : Vec Ideal S512x2048 .f32) (p : Fin 512) (q : Fin 2048) :
    k0_pay1 (F := Ideal) v17 (ix2 p q) = Cert.Spec.rate (v17 (ix2 p q)) := by
  unfold k0_pay1
  rw [shapeCast_self]
  rfl

/-- The tile product's dimension numbers: rows × contraction times contraction × columns. -/
abbrev D : DotDims S64x2048 S2048x512 S64x512 := dot_S64x2048_S2048x512_S64x512_1_0_0_1_n_n

theorem lhs0 (i : S64x512.Idx) (q : D.contr.Idx) : (D.lhsIdx i q 0).val = (i 0).val := by
  unfold DotDims.lhsIdx
  rw [dif_neg (show ¬(0 : Fin S64x2048.rank) ∈ D.lhsBatch by decide), dif_pos (show (0 : Fin S64x2048.rank) ∈ D.lhsNonContracting by decide)]
  rfl
theorem lhs1 (i : S64x512.Idx) (q : D.contr.Idx) : (D.lhsIdx i q 1).val = (q ⟨0, by decide⟩).val :=
  D.lhsIdx_val_of_single rfl i q
theorem rhs0 (i : S64x512.Idx) (q : D.contr.Idx) : (D.rhsIdx i q 0).val = (q ⟨0, by decide⟩).val :=
  D.rhsIdx_val_of_single rfl i q
theorem rhs1 (i : S64x512.Idx) (q : D.contr.Idx) : (D.rhsIdx i q 1).val = (i 1).val := by
  unfold DotDims.rhsIdx
  rw [dif_neg (show ¬(1 : Fin S2048x512.rank) ∈ D.rhsBatch by decide), dif_pos (show (1 : Fin S2048x512.rank) ∈ D.rhsNonContracting by decide)]
  rfl

/-- The tile product into the zero accumulator, at (s, o): the sum over k of left (s, k) times right (k, o). -/
theorem matmul_at (l : FVec Ideal S64x2048 .bf16) (r : FVec Ideal S2048x512 .bf16) (s : Fin 64) (o : Fin 512) :
    matmul D none l r (constant (F := Ideal) S64x512 .f32 0x00000000#32) (ix2 s o) = ∑ k : Fin 2048, l (ix2 s k) * r (ix2 k o) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 s o) ((contrEquiv1 D 2048 rfl rfl).symm k) = ix2 s k := funext fun a => Fin.ext (by
    match a with
    | ⟨0, _⟩ => exact lhs0 _ _
    | ⟨1, _⟩ => exact (lhs1 _ _).trans hk)
  have er : D.rhsIdx (ix2 s o) ((contrEquiv1 D 2048 rfl rfl).symm k) = ix2 k o := funext fun a => Fin.ext (by
    match a with
    | ⟨0, _⟩ => exact (rhs0 _ _).trans hk
    | ⟨1, _⟩ => exact rhs1 _ _)
  rw [el, er]

/-- The stored output entry: x's row s against row o of the combined weight scratch · state + base. -/
theorem pay2_apply (v3 : Vec Ideal S512x2048 .f32) (v4 : Vec Ideal S1x512x2048 .f32) (v7 : Vec Ideal S512x2048 .f32)
    (v10 : Vec Ideal S1x64x2048 .bf16) (u : Fin 1) (s : Fin 64) (o : Fin 512) :
    k0_pay2 (F := Ideal) v3 v4 v7 v10 (ix3 u s o)
      = ∑ k : Fin 2048, v10 (ix3 (0 : Fin 1) s k) * (v3 (ix2 o k) * v4 (ix3 (0 : Fin 1) o k) + v7 (ix2 o k)) := by
  unfold k0_pay2
  refine (shapeCast_ab_1ab_apply _ _ u s o).trans ?_
  refine (matmul_at _ _ s o).trans ?_
  refine Finset.sum_congr rfl fun k _ => ?_
  refine congrArg₂ (· * ·) (shapeCast_1ab_ab_apply v10 _ s k) ?_
  refine (transpose_ix2_apply _ _ k o).trans ?_
  show v3 (ix2 o k) * shapeCast S512x2048 v4 shapeCasts_S1x512x2048_S512x2048 (ix2 o k) + v7 (ix2 o k) = _
  rw [shapeCast_1ab_ab_apply v4 _ o k]

end Cert.KernelIdeal.PayAt

end
-- ==== Proof.Tiles.lean ====
/-
  The grid and the input tiles.

  The grid is 4 × 32: point t has output-column tile t / 32 (512 weight rows each) and batch t % 32.  Each input
  window's block at point t is the corresponding tile of its argument array: x by batch, the log-rates and the base
  weight by column tile, the state by both.
-/
import proofs.«163367_j19069654794325_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Tiles

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The batch of grid point n. -/
def bcol (n : ℕ) : Fin 32 := ⟨n % 32, Nat.mod_lt _ (by decide)⟩
/-- Row p of grid point n's column tile, as a row of the 2048-row weight arrays. -/
def orow (n : ℕ) (p : Fin 512) : Fin 2048 := ⟨512 * (n / 32 % 4) + p.val, by have := p.isLt; omega⟩

/-- The printed index maps over the grid: x and the output move with the batch, the weights with the column tile,
    the state with both. -/
theorem idx_facts : ∀ t : Fin cfg0.N,
    win0_0.index t (0 : Fin 3) = t.val % 32 ∧ win0_0.index t (1 : Fin 3) = 0 ∧ win0_0.index t (2 : Fin 3) = 0
    ∧ win0_1.index t (0 : Fin 2) = t.val / 32 ∧ win0_1.index t (1 : Fin 2) = 0
    ∧ win0_2.index t (0 : Fin 3) = t.val % 32 ∧ win0_2.index t (1 : Fin 3) = t.val / 32 ∧ win0_2.index t (2 : Fin 3) = 0
    ∧ win0_3.index t (0 : Fin 2) = t.val / 32 ∧ win0_3.index t (1 : Fin 2) = 0
    ∧ win0_4.index t (0 : Fin 3) = t.val % 32 ∧ win0_4.index t (1 : Fin 3) = 0 ∧ win0_4.index t (2 : Fin 3) = t.val / 32 :=
  (by decide +kernel : ∀ t : Fin grid0.N, _)

/-! ## The input tiles, read off the argument arrays -/

/-- x's tile at point t is batch t % 32 of x (x reaches the region through a change of float format: the identity). -/
theorem xblk_at (c : Dev nD) (t : Fin cfg0.N) (u : Fin 1) (s : Fin 64) (k : Fin 2048) :
    (iblk m c 0 t : Vec Ideal S1x64x2048 .bf16) (ix3 u s k) = m ((c : Thread nD τ).loc main_arg0) (ix3 (bcol t.val) s k) := by
  have e : (V m c main_v0 : S32x64x2048.Idx → EReal)
      = (truncf (F := Ideal) .bf16 (m ((c : Thread nD τ).loc main_arg0) : FVec Ideal S32x64x2048 .f32) bitsLt_bf16_f32 : FVec Ideal S32x64x2048 .bf16) := by
    dsimp only [Gen.V, Gen.hostOps0]; after_results
  have hN : t.val < 128 := lt_of_lt_of_eq t.isLt N_0
  obtain ⟨e0, e1, e2, -⟩ := idx_facts t
  have hu : u.val = 0 := by omega
  unfold iblk
  rw [View.read_apply]
  show V m c main_v0 (((cfg0.win 0).blk t).view.emb (ix3 u s k)) = _
  rw [e]
  show m ((c : Thread nD τ).loc main_arg0) (((cfg0.win 0).blk t).view.emb (ix3 u s k)) = _
  congr 1
  funext a
  apply Fin.ext
  match a with
  | ⟨0, _⟩ => show win0_0.index t (0 : Fin 3) * 1 + 1 * u.val = t.val % 32; rw [e0]; omega
  | ⟨1, _⟩ => show win0_0.index t (1 : Fin 3) * 64 + 1 * s.val = s.val; rw [e1]; omega
  | ⟨2, _⟩ => show win0_0.index t (2 : Fin 3) * 2048 + 1 * k.val = k.val; rw [e2]; omega

/-- The log-rate tile at point t is rows 512·(t / 32) … of the log-rates. -/
theorem lblk_at (c : Dev nD) (t : Fin cfg0.N) (p : Fin 512) (q : Fin 2048) :
    (iblk m c 1 t : Vec Ideal S512x2048 .f32) (ix2 p q) = m ((c : Thread nD τ).loc main_arg1) (ix2 (orow t.val p) q) := by
  have hN : t.val < 128 := lt_of_lt_of_eq t.isLt N_0
  obtain ⟨-, -, -, e0, e1, -⟩ := idx_facts t
  unfold iblk
  rw [View.read_apply]
  show V m c main_arg1 (((cfg0.win 1).blk t).view.emb (ix2 p q)) = _
  rw [V_main_arg1]
  congr 1
  funext a
  apply Fin.ext
  match a with
  | ⟨0, _⟩ => show win0_1.index t (0 : Fin 2) * 512 + 1 * p.val = 512 * (t.val / 32 % 4) + p.val; rw [e0]; omega
  | ⟨1, _⟩ => show win0_1.index t (1 : Fin 2) * 2048 + 1 * q.val = q.val; rw [e1]; omega

/-- The state tile at point t is batch t % 32, rows 512·(t / 32) … of the state. -/
theorem sblk_at (c : Dev nD) (t : Fin cfg0.N) (u : Fin 1) (p : Fin 512) (q : Fin 2048) :
    (iblk m c 2 t : Vec Ideal S1x512x2048 .f32) (ix3 u p q) = m ((c : Thread nD τ).loc main_arg2) (ix3 (bcol t.val) (orow t.val p) q) := by
  have hN : t.val < 128 := lt_of_lt_of_eq t.isLt N_0
  obtain ⟨-, -, -, -, -, e0, e1, e2, -⟩ := idx_facts t
  have hu : u.val = 0 := by omega
  unfold iblk
  rw [View.read_apply]
  show V m c main_arg2 (((cfg0.win 2).blk t).view.emb (ix3 u p q)) = _
  rw [V_main_arg2]
  congr 1
  funext a
  apply Fin.ext
  match a with
  | ⟨0, _⟩ => show win0_2.index t (0 : Fin 3) * 1 + 1 * u.val = t.val % 32; rw [e0]; omega
  | ⟨1, _⟩ => show win0_2.index t (1 : Fin 3) * 512 + 1 * p.val = 512 * (t.val / 32 % 4) + p.val; rw [e1]; omega
  | ⟨2, _⟩ => show win0_2.index t (2 : Fin 3) * 2048 + 1 * q.val = q.val; rw [e2]; omega

/-- The base-weight tile at point t is rows 512·(t / 32) … of the base weight. -/
theorem wblk_at (c : Dev nD) (t : Fin cfg0.N) (p : Fin 512) (q : Fin 2048) :
    (iblk m c 3 t : Vec Ideal S512x2048 .f32) (ix2 p q) = m ((c : Thread nD τ).loc main_arg4) (ix2 (orow t.val p) q) := by
  have hN : t.val < 128 := lt_of_lt_of_eq t.isLt N_0
  obtain ⟨-, -, -, -, -, -, -, -, e0, e1, -⟩ := idx_facts t
  unfold iblk
  rw [View.read_apply]
  show V m c main_arg4 (((cfg0.win 3).blk t).view.emb (ix2 p q)) = _
  rw [V_main_arg4]
  congr 1
  funext a
  apply Fin.ext
  match a with
  | ⟨0, _⟩ => show win0_3.index t (0 : Fin 2) * 512 + 1 * p.val = 512 * (t.val / 32 % 4) + p.val; rw [e0]; omega
  | ⟨1, _⟩ => show win0_3.index t (1 : Fin 2) * 2048 + 1 * q.val = q.val; rw [e1]; omega

end Cert.KernelIdeal.Tiles

end
-- ==== Proof.Whole.lean ====
/-
  The kernel's result array as one function of the argument arrays.

  The grid is 4 × 32: point t has output-column tile t / 32 (512 columns each) and batch t % 32.  The carried scratch
  is rewritten exactly when the batch coordinate is zero, from the log-rate tile of the point's column tile, and the
  column tile does not change before the next rewrite; so after EVERY point the scratch holds the rate tile of the
  point's own column tile (induction along the grid).  The output tile of point t is then the fused contraction of
  x's batch t % 32 against rows 512·(t / 32) … of the combined weight, which is the tile of the whole fused result
  that the point's block names; the 128 blocks (batch × column tile) cover the result array.
-/
import proofs.«163367_j19069654794325_2_alg».proof.Proof.Gen.KernelIdeal.Value
import proofs.«163367_j19069654794325_2_alg».proof.Proof.Pieces
import proofs.«163367_j19069654794325_2_alg».proof.Proof.PayAt
import proofs.«163367_j19069654794325_2_alg».proof.Proof.Spec
import proofs.«163367_j19069654794325_2_alg».proof.Proof.Tiles
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.KernelIdeal.Tiles
open Idealize.ShloMosaic.Pipeline (Dat)

variable (m : (ℓ : Loc nD τ sig) → Buf (Elt Ideal) ℓ) (ρ : Dev nD → PrngReg)

/-! ## What each point leaves in the scratch and in the output tile -/

theorem scr_A (c : Dev nD) (t : Fin cfg0.N) (h0 : t.val % 32 = 0) :
    (outsAt0 m c t.val t.isLt).2 = k0_pay1 (iblk m c 1 t) := by
  rw [outsAt0_A m c t h0]
  dsimp only
  exact Pieces.scratch_A (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) ((hcond0_0 t).mpr h0)
    (iblk m c 0 t) (iblk m c 1 t) (iblk m c 2 t) (iblk m c 3 t)

theorem scr_B (c : Dev nD) (t : Fin cfg0.N) (h0 : ¬t.val % 32 = 0) :
    (outsAt0 m c t.val t.isLt).2 = (outsAt0 m c (t.val - 1) (Nat.lt_of_le_of_lt (Nat.sub_le _ _) t.isLt)).2 := by
  rw [outsAt0_B m c t h0]
  rfl

theorem out_A' (c : Dev nD) (t : Fin cfg0.N) (h0 : t.val % 32 = 0) :
    (outsAt0 m c t.val t.isLt).1 = k0_pay2 (k0_pay1 (iblk m c 1 t)) (iblk m c 2 t) (iblk m c 3 t) (iblk m c 0 t) := by
  rw [outsAt0_A m c t h0]
  dsimp only
  exact Pieces.out_A (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) ((hcond0_0 t).mpr h0)
    (iblk m c 0 t) (iblk m c 1 t) (iblk m c 2 t) (iblk m c 3 t)

theorem out_B' (c : Dev nD) (t : Fin cfg0.N) (h0 : ¬t.val % 32 = 0) :
    (outsAt0 m c t.val t.isLt).1 = k0_pay2 (outsAt0 m c (t.val - 1) (Nat.lt_of_le_of_lt (Nat.sub_le _ _) t.isLt)).2
      (iblk m c 2 t) (iblk m c 3 t) (iblk m c 0 t) := by
  rw [outsAt0_B m c t h0]
  dsimp only
  exact Pieces.out_B (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h))
    (iblk m c 0 t) (iblk m c 1 t) (iblk m c 2 t) (iblk m c 3 t) (outsAt0 m c (t.val - 1) (Nat.lt_of_le_of_lt (Nat.sub_le _ _) t.isLt)).2

/-- At every point the output tile is the payload over the scratch as it stands AFTER the point: freshly stored
    where the batch coordinate is zero, carried unchanged elsewhere. -/
theorem out_eq (c : Dev nD) (t : Fin cfg0.N) :
    (outsAt0 m c t.val t.isLt).1 = k0_pay2 (outsAt0 m c t.val t.isLt).2 (iblk m c 2 t) (iblk m c 3 t) (iblk m c 0 t) := by
  by_cases h0 : t.val % 32 = 0
  · rw [scr_A m c t h0]; exact out_A' m c t h0
  · rw [scr_B m c t h0]; exact out_B' m c t h0

/-- THE CARRIED SCRATCH: after point n it holds the rate tile of point n's own column tile — stored at the points with
    batch coordinate zero, and between two such points the column tile n / 32 does not move. -/
theorem scratch_at (c : Dev nD) : ∀ (n : ℕ) (hn : n < cfg0.N) (p : Fin 512) (q : Fin 2048),
    (outsAt0 m c n hn).2 (ix2 p q) = Cert.Spec.rate (m ((c : Thread nD τ).loc main_arg1) (ix2 (orow n p) q)) := by
  intro n
  induction n with
  | zero =>
    intro hn p q
    exact (congrFun (scr_A m c ⟨0, hn⟩ rfl) (ix2 p q)).trans
      ((PayAt.pay1_apply (iblk m c 1 ⟨0, hn⟩) p q).trans (congrArg Cert.Spec.rate (lblk_at m c ⟨0, hn⟩ p q)))
  | succ n ih =>
    intro hn p q
    have hN : n + 1 < 128 := lt_of_lt_of_eq hn N_0
    by_cases h0 : (n + 1) % 32 = 0
    · exact (congrFun (scr_A m c ⟨n + 1, hn⟩ h0) (ix2 p q)).trans
        ((PayAt.pay1_apply (iblk m c 1 ⟨n + 1, hn⟩) p q).trans (congrArg Cert.Spec.rate (lblk_at m c ⟨n + 1, hn⟩ p q)))
    · refine (congrFun (scr_B m c ⟨n + 1, hn⟩ h0) (ix2 p q)).trans ?_
      refine (ih (Nat.lt_of_succ_lt hn) p q).trans ?_
      have e : orow n p = orow (n + 1) p :=
        Fin.ext (by show 512 * (n / 32 % 4) + p.val = 512 * ((n + 1) / 32 % 4) + p.val; omega)
      rw [e]

/-- The output tile of point t, entry (·, s, o): the fused contraction for batch t % 32 and weight row 512·(t / 32) + o. -/
theorem out_at (c : Dev nD) (t : Fin cfg0.N) (u : Fin 1) (s : Fin 64) (o : Fin 512) :
    (outsAt0 m c t.val t.isLt).1 (ix3 u s o)
      = Cert.Spec.fusedAt (m ((c : Thread nD τ).loc main_arg0)) (m ((c : Thread nD τ).loc main_arg1)) (m ((c : Thread nD τ).loc main_arg2)) (m ((c : Thread nD τ).loc main_arg4))
          (bcol t.val) s (orow t.val o) := by
  rw [out_eq m c t]
  refine (PayAt.pay2_apply (outsAt0 m c t.val t.isLt).2 (iblk m c 2 t) (iblk m c 3 t) (iblk m c 0 t) u s o).trans ?_
  unfold Cert.Spec.fusedAt
  refine Finset.sum_congr rfl fun k _ => ?_
  rw [xblk_at m c t 0 s k, scratch_at m c t.val t.isLt o k, sblk_at m c t 0 o k, wblk_at m c t o k]

/-! ## From the tiles to the array -/

/-- The result array's contents: the fused form of the specification over the argument arrays. -/
abbrev result (c : Dev nD) : Buf (Elt Ideal) ((c : Thread nD τ).loc main_v1) :=
  Cert.Spec.fused (m ((c : Thread nD τ).loc main_arg0)) (m ((c : Thread nD τ).loc main_arg1)) (m ((c : Thread nD τ).loc main_arg2)) (m ((c : Thread nD τ).loc main_arg4))

/-- What point t writes back is its block of that function. -/
theorem flushed_eq (c : Dev nD) (t : Fin cfg0.N) (_hf : (cfg0.win 4).flush t = true) :
    (dats m 0 c).flushed 4 t = ((cfg0.win 4).blk t).view.read (Elt Ideal) (result m c) := by
  rw [Value.flushed4]
  have hN : t.val < 128 := lt_of_lt_of_eq t.isLt N_0
  obtain ⟨-, -, -, -, -, -, -, -, -, -, e0, e1, e2⟩ := idx_facts t
  funext y
  obtain ⟨u, s, o, rfl⟩ : ∃ (u : Fin 1) (s : Fin 64) (o : Fin 512), y = ix3 u s o := ⟨y 0, y 1, y 2, eq_ix3 y⟩
  have hu : u.val = 0 := by omega
  show (outsAt0 m c t.val t.isLt).1 (ix3 u s o) = result m c (((cfg0.win 4).blk t).view.emb (ix3 u s o))
  rw [out_at]
  show _ = Cert.Spec.fusedAt _ _ _ _ ((((cfg0.win 4).blk t).view.emb (ix3 u s o)) 0) ((((cfg0.win 4).blk t).view.emb (ix3 u s o)) 1)
    ((((cfg0.win 4).blk t).view.emb (ix3 u s o)) 2)
  have hb : bcol t.val = (((cfg0.win 4).blk t).view.emb (ix3 u s o)) 0 :=
    Fin.ext (by show t.val % 32 = win0_4.index t (0 : Fin 3) * 1 + 1 * u.val; rw [e0]; omega)
  have hs : s = (((cfg0.win 4).blk t).view.emb (ix3 u s o)) 1 :=
    Fin.ext (by show s.val = win0_4.index t (1 : Fin 3) * 64 + 1 * s.val; rw [e1]; omega)
  have ho : orow t.val o = (((cfg0.win 4).blk t).view.emb (ix3 u s o)) 2 :=
    Fin.ext (by show 512 * (t.val / 32 % 4) + o.val = win0_4.index t (2 : Fin 3) * 512 + 1 * o.val; rw [e2]; omega)
  rw [← hb, ← hs, ← ho]

/-- An index of the result array is in point t's block iff each coordinate is in the block's range on its axis. -/
theorem mem_blk (t : Fin cfg0.N) (i : S32x64x2048.Idx) :
    i ∈ ((cfg0.win 4).blk t).view.set ↔ ∀ a : Fin 3, win0_4.index t a * S1x64x512.size a ≤ (i a).val
      ∧ (i a).val < win0_4.index t a * S1x64x512.size a + S1x64x512.size a := by
  show i ∈ ((View.whole main_v1).slice (win0_4.rect t)).set ↔ _
  rw [View.set_slice_whole, Rect.mem_set_unit]
  exact Iff.rfl

/-- Entry (b, s, j) of the result lies in the block of the point with batch b and column tile j / 512. -/
theorem cover (i : S32x64x2048.Idx) : ∃ t : Fin cfg0.N, (cfg0.win 4).flush t = true ∧ i ∈ ((cfg0.win 4).blk t).view.set := by
  have h0 : (i 0).val < 32 := (i 0).isLt
  have h1 : (i 1).val < 64 := (i 1).isLt
  have h2 : (i 2).val < 2048 := (i 2).isLt
  have hN : cfg0.N = 128 := N_0
  obtain ⟨t, tv⟩ : ∃ t : Fin cfg0.N, t.val = 32 * ((i 2).val / 512) + (i 0).val :=
    ⟨⟨32 * ((i 2).val / 512) + (i 0).val, by rw [hN]; omega⟩, rfl⟩
  obtain ⟨-, -, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; rw [e0, tv]; omega
  | ⟨1, _⟩ => show win0_4.index t (1 : Fin 3) * 64 ≤ (i 1).val ∧ (i 1).val < win0_4.index t (1 : Fin 3) * 64 + 64; rw [e1]; omega
  | ⟨2, _⟩ => show win0_4.index t (2 : Fin 3) * 512 ≤ (i 2).val ∧ (i 2).val < win0_4.index t (2 : Fin 3) * 512 + 512; rw [e2, tv]; omega

/-- So the result array ends holding the fused form. -/
theorem final (c : Dev nD) : (dats m 0 c).arrAt 4 cfg0.N = result m c :=
  (dats m 0 c).arrAt_eq_of_cover 4 (result m c) (flushed_eq m c) cover

/-- The kernel's run, read: the result array at the fused form of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  The certificate's claims, assembled.

  Both programs compute a per-batch fast-weight readout y[b,s,o] of x[b,s,i] against the combined weight
  rate(L[o,i]) · st[b,o,i] + w[o,i], rate(l) = c_lr · exp(l · c_exp).  The kernel contracts the combined weight once,
  tile by tile over a 4 × 32 grid, keeping the rate tile of the current column tile in a scratch buffer it refills
  whenever the batch coordinate returns to zero; the reference contracts the two summands separately and adds.
  Over the extended reals the two agree because every input entry is a real number (the precondition) and the
  exponential of a real is real, so the factor x distributes over the sum entry by entry.

  Frames: the two kernel programs by the generated frame runs, the reference by its generated run.  The
  idealization rewrote nothing, so preservation is trivial.
-/
import proofs.«163367_j19069654794325_2_alg».proof.Defs
import proofs.«163367_j19069654794325_2_alg».proof.Proof.Gen.Kernel
import proofs.«163367_j19069654794325_2_alg».proof.Proof.Gen.Kernel.Skeleton
import proofs.«163367_j19069654794325_2_alg».proof.Proof.Gen.Kernel.Launch
import proofs.«163367_j19069654794325_2_alg».proof.Proof.Gen.Kernel.Points
import proofs.«163367_j19069654794325_2_alg».proof.Proof.Gen.Kernel.Frame
import proofs.«163367_j19069654794325_2_alg».proof.Proof.Gen.KernelIdeal
import proofs.«163367_j19069654794325_2_alg».proof.Proof.Gen.KernelIdeal.Skeleton
import proofs.«163367_j19069654794325_2_alg».proof.Proof.Gen.KernelIdeal.Launch
import proofs.«163367_j19069654794325_2_alg».proof.Proof.Gen.KernelIdeal.Points
import proofs.«163367_j19069654794325_2_alg».proof.Proof.Gen.KernelIdeal.Frame
import proofs.«163367_j19069654794325_2_alg».proof.Proof.Gen.ReferenceIdeal
import proofs.«163367_j19069654794325_2_alg».proof.Proof.Gen.Pre_finite_inputs
import proofs.«163367_j19069654794325_2_alg».proof.Proof.Gen.KernelIdeal.Value
import proofs.«163367_j19069654794325_2_alg».proof.Proof.Gen.ReferenceIdeal.Run
import proofs.«163367_j19069654794325_2_alg».proof.Proof.Gen.ReferenceIdeal.Read
import proofs.«163367_j19069654794325_2_alg».proof.Proof.Spec
import proofs.«163367_j19069654794325_2_alg».proof.Proof.Finite
import proofs.«163367_j19069654794325_2_alg».proof.Proof.RefIs
import proofs.«163367_j19069654794325_2_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the fused form of its arguments, the reference's at the split form of
    arguments that agree with them; the precondition makes every entry real, and on real entries the two forms
    are one function. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hL, hst, hw⟩ := Cert.Pre_finite_inputs.Finite.real_of_pre _ _ _ _ _ (hpre c)
  rw [Cert.ReferenceIdeal.Read.val_main_v10_eq, Cert.ReferenceIdeal.RefValue.ref_eq, (hagree c).1, (hagree c).2.1,
    (hagree c).2.2.1, (hagree c).2.2.2.2]
  exact (Cert.Spec.fused_eq_split hx hL hst hw).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
